-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S128x8192 : Shape := ⟨2, ![128, 8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x8192 : S_.BroadcastsInDim S128x8192 (![] : Fin 0 → Fin S128x8192.rank)
  reducesTo_S128x8192_S_d0_1 : S128x8192.ReducesTo [0, 1] S_

variable [Facts]

def fn {F : FTy → Type} [FloatOps F] (main_arg0 : FVec F S8192x128 .f32) (main_arg1 : FVec F S128x8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x8192 .f32 := Host.absf main_arg1
  let main_cst_0 : FVec F S_ .f32 := constant S_ .f32 0x7F800000#32
  let main_v5 : FVec F S128x8192 .f32 := broadcastInDim S128x8192 ![] bcast_S_S128x8192 main_cst_0
  let main_v6 : IVec S128x8192 1 := cmpf .olt main_v4 main_v5
  let main_c_1 : IVec S_ 1 := constantI S_ 1 1#1
  let main_v7 : IVec S_ 1 := (fun x v => Host.reduce IntOp.andi x v reducesTo_S128x8192_S_d0_1 h_S_) main_v6 main_c_1
  let main_v8 : IVec S_ 1 := andi main_v3 main_v7
  main_v8
-- ==== Kernel.lean ====
abbrev S8192x128 : Shape := ⟨2, ![8192, 128]⟩
abbrev S128x8192 : Shape := ⟨2, ![128, 8192]⟩
abbrev S8192x8192 : Shape := ⟨2, ![8192, 8192]⟩
abbrev S2048x128 : Shape := ⟨2, ![2048, 128]⟩
abbrev S128x2048 : Shape := ⟨2, ![128, 2048]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S128x8192, .f32⟩
  | .hbm, ⟨2, _⟩ => ⟨S8192x8192, .f32⟩
  | .local _ .vmem, ⟨0, _⟩ => ⟨S2048x128, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x2048, .f32⟩
  | .local _ .vmem, ⟨5, _⟩ => ⟨S2048x2048, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S2048x128_S2048x128_0_0 : ∀ a, (![0, 0] : Fin 2 → Nat) a + S2048x128.size a ≤ S2048x128.size a
  h_S2048x128 : 0 < S2048x128.numel
  inb_S128x2048_S128x2048_0_0 : ∀ a, (![0, 0] : Fin 2 → Nat) a + S128x2048.size a ≤ S128x2048.size a
  h_S128x2048 : 0 < S128x2048.numel
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  dot_S2048x128_S128x2048_S2048x2048_1_0_0_1_n_n_wf : DotDims.WF S2048x128 S128x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .f32 = 32 ∨ (Rect.block (s := S8192x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x8192.size a
  hwx0_1 : ∀ i : grid0.Coords, EltTy.bits .f32 = 32 ∨ (Rect.block (s := S128x8192) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S8192x8192.size a
  hwx0_2 : ∀ i : grid0.Coords, EltTy.bits .f32 = 32 ∨ (Rect.block (s := S8192x8192) S2048x2048.size (cc0_transform_2 i) (hinb0_2 i)).WholeWords (EltTy.packing .f32)

variable [Facts₀]

def dot_S2048x128_S128x2048_S2048x2048_1_0_0_1_n_n : DotDims S2048x128 S128x2048 S2048x2048 where
  lhsContracting := [1]
  rhsContracting := [0]
  lhsNonContracting := [0]
  rhsNonContracting := [1]
  lhsBatch := []
  rhsBatch := []
  wf := dot_S2048x128_S128x2048_S2048x2048_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x8192 : Shape := ⟨2, ![128, 8192]⟩
abbrev S_ : Shape := ⟨0, ![]⟩
abbrev S8192x8192 : Shape := ⟨2, ![8192, 8192]⟩

abbrev nBuf : Space → Nat
  | .hbm => 15
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x8192, .f32⟩
  | .hbm, ⟨2, _⟩ => ⟨S_, .f32⟩
  | .hbm, ⟨3, _⟩ => ⟨S8192x128, .f32⟩
  | .hbm, ⟨4, _⟩ => ⟨S8192x128, .f32⟩
  | .hbm, ⟨5, _⟩ => ⟨S_, .f32⟩
  | .hbm, ⟨6, _⟩ => ⟨S8192x128, .f32⟩
  | .hbm, ⟨7, _⟩ => ⟨S8192x128, .f32⟩
  | .hbm, ⟨8, _⟩ => ⟨S_, .f32⟩
  | .hbm, ⟨9, _⟩ => ⟨S128x8192, .f32⟩
  | .hbm, ⟨10, _⟩ => ⟨S128x8192, .f32⟩
  | .hbm, ⟨11, _⟩ => ⟨S_, .f32⟩
  | .hbm, ⟨12, _⟩ => ⟨S128x8192, .f32⟩
  | .hbm, ⟨13, _⟩ => ⟨S128x8192, .f32⟩
  | .hbm, ⟨14, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S_S8192x128 : S_.BroadcastsInDim S8192x128 (![] : Fin 0 → Fin S8192x128.rank)
  bcast_S_S128x8192 : S_.BroadcastsInDim S128x8192 (![] : Fin 0 → Fin S128x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Dequant.lean ====
/-
  The function both programs compute. Each operand holds integer codes; a code `a` of the left operand stands for the
  number (a − zL)·sL and a code `b` of the right operand for (b − zR)·sR, with the zero points zL = −25, zR = 18 and the
  scales sL, sR the two single-precision numbers nearest 0.0215 and 0.0176 (kept as their bit patterns: the same
  patterns occur on both sides and are never evaluated). The result at row `r`, column `s` is the sum over the shared
  coordinate `k` of the product of the two decoded entries. Stated for any extents M × K and K × N, on the extended
  reals; nothing here depends on a program.
-/
import Idealize.ShloMosaic.Lib.ValueIdx
import Idealize.ShloMosaic.PureOps.Ideal

noncomputable section

open scoped BigOperators

namespace Cert.Dequant

open Idealize.ShloMosaic Idealize.ShloMosaic.ValueIdx

/-- A left code decoded: (a − (−25)) · sL. -/
def decodeL (a : EReal) : EReal := (a - Ideal.ofBits .f32 0xC1C80000#32) * Ideal.ofBits .f32 0x3CB020C5#32

/-- A right code decoded: (b − 18) · sR. -/
def decodeR (b : EReal) : EReal := (b - Ideal.ofBits .f32 0x41900000#32) * Ideal.ofBits .f32 0x3C902DE0#32

/-- The product of the two decoded matrices, entry by entry: Σₖ decodeL x(r, k) · decodeR y(k, s). -/
def decodedProduct {M K N : Nat} (x : FVec Ideal ⟨2, ![M, K]⟩ .f32) (y : FVec Ideal ⟨2, ![K, N]⟩ .f32) :
    FVec Ideal ⟨2, ![M, N]⟩ .f32 :=
  fun i => ∑ k : Fin K, decodeL (x (ix2 (i 0) k)) * decodeR (y (ix2 k (i 1)))

/-- The entry at row `r`, column `s` reads row `r` of the left operand and column `s` of the right one, and nothing else. -/
theorem decodedProduct_apply {M K N : Nat} (x : FVec Ideal ⟨2, ![M, K]⟩ .f32) (y : FVec Ideal ⟨2, ![K, N]⟩ .f32)
    (i : (⟨2, ![M, N]⟩ : Shape).Idx) :
    decodedProduct x y i = ∑ k : Fin K, decodeL (x (ix2 (i 0) k)) * decodeR (y (ix2 k (i 1))) := rfl

end Cert.Dequant

end
-- ==== Proof.RefProduct.lean ====
/-
  The reference's result is the decoded product of its two arguments. Its last operation is a matrix product of
  (x − zL)·sL and (y − zR)·sR over the whole arrays; at an index that product is the sum over the contracted coordinate,
  and each factor, read at its index, is the decoded code: the constants are broadcast scalars, the subtraction and the
  scaling act entry by entry.
-/
import proofs.«168232_j54752243089862_1_alg».proof.Proof.Gen.ReferenceIdeal.Read
import proofs.«168232_j54752243089862_1_alg».proof.Proof.Dequant

noncomputable section

open scoped BigOperators

namespace Cert.ReferenceIdeal.RefValue

open Cert.ReferenceIdeal Cert.ReferenceIdeal.Gen Cert.ReferenceIdeal.Read Cert.Dequant
open Idealize.ShloMosaic Idealize.ShloMosaic.ValueIdx

/-- The reference's product stage, as a function of the two argument arrays, is the decoded product. -/
theorem product_eq (x : FVec Ideal S8192x128 .f32) (y : FVec Ideal S128x8192 .f32) :
    val_main_v8 (F := Ideal) x y = decodedProduct (M := 8192) (K := 128) (N := 8192) x y := by
  funext i
  obtain ⟨r, s, rfl⟩ : ∃ (r : Fin 8192) (s : Fin 8192), i = ix2 r s := ⟨i 0, i 1, eq_ix2 i⟩
  rw [val_main_v8_apply]
  show _ = ∑ k : Fin 128, decodeL (x (ix2 r k)) * decodeR (y (ix2 k s))
  refine Finset.sum_congr rfl fun k _ => ?_
  have el : lidx_main_v8 (ix2 r s) k = ix2 r k :=
    funext fun a => Fin.ext (by match a with | ⟨0, _⟩ => rfl | ⟨1, _⟩ => rfl)
  have er : ridx_main_v8 (ix2 r s) k = ix2 k s :=
    funext fun a => Fin.ext (by match a with | ⟨0, _⟩ => rfl | ⟨1, _⟩ => rfl)
  rw [el, er, val_main_v3_apply, val_main_v1_apply, val_main_v0_apply, val_main_cst_apply, val_main_v2_apply,
    val_main_cst_0_apply, val_main_v7_apply, val_main_v5_apply, val_main_v4_apply, val_main_cst_1_apply,
    val_main_v6_apply, val_main_cst_2_apply]
  rfl

end Cert.ReferenceIdeal.RefValue

end
-- ==== Proof.LibMatmulAt.lean ====
/-
  A matrix product accumulated into the zero splat, read at an index. With the standard dimension numbers (an M × K
  matrix times a K × N one, contracted over the left operand's columns and the right operand's rows) the entry at row `a`
  and column `b` is the sum over the contracted coordinate `k` of A(a, k) · B(k, b). At the ideal values, where the
  product is that exact sum; nothing here depends on a program.
-/
import Idealize.ShloMosaic.Lib.StackMember
import Idealize.ShloMosaic.Lib.ValueIdx
import Idealize.ShloMosaic.Lib.KernelVsHost
import Idealize.ShloMosaic.PureOps.Ideal.Laws

namespace Cert.KernelIdeal.Hand

open Idealize.ShloMosaic Idealize.ShloMosaic.ValueIdx

/-- A record of dimension numbers equal to the plain ones (its lists are `[1] [0] [0] [1] [] []`; the equation is `rfl`
    at a literal record, whatever its well-formedness proof): the product into the zero splat is, entry by entry, the
    sum over the contracted coordinate of the entries' products. -/
theorem matmul_zero_plain_apply {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    matmul d prec A B (constant ⟨2, ![M, N]⟩ .f32 0x00000000#32) j = ∑ k : Fin K, A (ix2 (j 0) k) * B (ix2 k (j 1)) := by
  subst hd
  rw [matmul_zero_eq_dotGeneral]
  conv_lhs => rw [eq_ix2 j]
  exact StackMember.dotGeneral_plain_apply prec A B (j 0) (j 1)

/-- The host's product with the same dimension numbers is the same sum. -/
theorem dotGeneral_plain_apply' {M K N : Nat} {φ₁ φ₂ : FTy}
    (d : DotDims ⟨2, ![M, K]⟩ ⟨2, ![K, N]⟩ ⟨2, ![M, N]⟩) (hd : d = DotDims.plain M K N) (prec : Option ContractPrecision)
    (A : FVec Ideal ⟨2, ![M, K]⟩ φ₁) (B : FVec Ideal ⟨2, ![K, N]⟩ φ₂) (j : (⟨2, ![M, N]⟩ : Shape).Idx) :
    Host.dotGeneral d prec A B j = ∑ k : Fin K, A (ix2 (j 0) k) * B (ix2 k (j 1)) := by
  subst hd
  conv_lhs => rw [eq_ix2 j]
  exact StackMember.dotGeneral_plain_apply prec A B (j 0) (j 1)

end Cert.KernelIdeal.Hand
-- ==== Proof.BodyProduct.lean ====
/-
  What the kernel body stores, as a function of the two blocks it loads: it decodes both blocks entry by entry, narrows
  them to the half-width format (no change of value on the extended reals), and multiplies them into a zero accumulator.
  That product, read at an index, is the sum over the contracted coordinate of the decoded entries' products: the decoded
  product of the two blocks.
-/
import proofs.«168232_j54752243089862_1_alg».proof.Proof.Gen.KernelIdeal.Skeleton
import proofs.«168232_j54752243089862_1_alg».proof.Proof.LibMatmulAt
import proofs.«168232_j54752243089862_1_alg».proof.Proof.Dequant

noncomputable section

open scoped BigOperators

namespace Cert.KernelIdeal.Hand

open Cert.KernelIdeal Cert.KernelIdeal.Gen Cert.Dequant
open Idealize.ShloMosaic Idealize.ShloMosaic.ValueIdx

/-- The stored value of one grid point is the decoded product of the point's two loaded blocks. -/
theorem stored_eq (x0 : Vec Ideal S2048x128 .f32) (x1 : Vec Ideal S128x2048 .f32) :
    k0_pay1 (F := Ideal) x0 x1 = decodedProduct (M := 2048) (K := 128) (N := 2048) x0 x1 := by
  funext j
  unfold k0_pay1
  refine (matmul_zero_plain_apply _ rfl none _ _ j).trans ?_
  rfl

end Cert.KernelIdeal.Hand

end
-- ==== Proof.Blocks.lean ====
/-
  From blocks to the whole result. The grid has 4 × 4 points; point (a, b) loads rows 2048a … 2048a + 2047 of the left
  argument (all 128 columns), columns 2048b … 2048b + 2047 of the right argument (all 128 rows), and writes back the
  2048 × 2048 block (a, b) of the result. An entry of the decoded product depends only on its own row of the left
  argument and its own column of the right one, so the decoded product of the two loaded blocks is block (a, b) of the
  decoded product of the whole arguments. The sixteen blocks tile the 8192 × 8192 result, so after the run the result
  array is the decoded product of the arguments.
-/
import proofs.«168232_j54752243089862_1_alg».proof.Proof.Gen.KernelIdeal.Value
import proofs.«168232_j54752243089862_1_alg».proof.Proof.BodyProduct
import Idealize.ShloMosaic.Lib.Pipeline.Value

noncomputable section

open scoped BigOperators

namespace Cert.KernelIdeal.Hand

open Cert.KernelIdeal Cert.KernelIdeal.Gen Cert.KernelIdeal.Value Cert.Dequant
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin2 : (![0, 0] : Fin 2 → Nat) = fun _ => 0 := funext fun a => by fin_cases a <;> rfl

/-- The block indices at a grid point: the left window follows the result's row block and stays at column block 0,
    the right window stays at row block 0 and follows the result's column block; the result's block indices are
    at most 3 on both axes. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2)
    ∧ win0_2.index t (0 : Fin 2) ≤ 3 ∧ win0_2.index t (1 : Fin 2) ≤ 3 :=
  (by decide +kernel : ∀ t : Fin grid0.N, _)

/-- Every one of the 4 × 4 result blocks is some grid point's. -/
theorem every_block : ∀ (q0 : Fin 4) (q1 : Fin 4), ∃ t : Fin cfg0.N, win0_2.index t = ![q0.val, q1.val] :=
  (by decide +kernel : ∀ (q0 : Fin 4) (q1 : Fin 4), ∃ t : Fin grid0.N, win0_2.index t = ![q0.val, q1.val])

/-- An entry of the left block at a point is the left argument's entry in the same column, in the row the result's
    row block puts it. -/
theorem left_block_apply (c : Dev nD) (t : Fin cfg0.N) (y : S2048x128.Idx) (i : S8192x128.Idx)
    (h0 : (i 0).val = win0_2.index t (0 : Fin 2) * 2048 + (y 0).val) (h1 : (i 1).val = (y 1).val) :
    (iblk m c 0 t : Vec Ideal S2048x128 .f32) y = (V m c main_arg0 : S8192x128.Idx → Elt Ideal .f32) i := by
  obtain ⟨e0, e1, -⟩ := block_indices t
  unfold iblk
  rw [View.read_apply]
  show V m c main_arg0 _ = V m c main_arg0 _
  refine congrArg _ ?_
  funext a
  apply Fin.ext
  match a with
  | ⟨0, _⟩ => show win0_0.index t (0 : Fin 2) * 2048 + 1 * (y 0).val = (i 0).val; omega
  | ⟨1, _⟩ => show win0_0.index t (1 : Fin 2) * 128 + 1 * (y 1).val = (i 1).val; omega

/-- An entry of the right block at a point is the right argument's entry in the same row, in the column the result's
    column block puts it. -/
theorem right_block_apply (c : Dev nD) (t : Fin cfg0.N) (y : S128x2048.Idx) (i : S128x8192.Idx)
    (h0 : (i 0).val = (y 0).val) (h1 : (i 1).val = win0_2.index t (1 : Fin 2) * 2048 + (y 1).val) :
    (iblk m c 1 t : Vec Ideal S128x2048 .f32) y = (V m c main_arg1 : S128x8192.Idx → Elt Ideal .f32) i := by
  obtain ⟨-, -, e2, e3, -⟩ := block_indices t
  unfold iblk
  rw [View.read_apply]
  show V m c main_arg1 _ = V m c main_arg1 _
  refine congrArg _ ?_
  funext a
  apply Fin.ext
  match a with
  | ⟨0, _⟩ => show win0_1.index t (0 : Fin 2) * 128 + 1 * (y 0).val = (i 0).val; omega
  | ⟨1, _⟩ => show win0_1.index t (1 : Fin 2) * 2048 + 1 * (y 1).val = (i 1).val; omega

/-- What a point writes back is its block of the decoded product of the whole arguments. -/
theorem flushed_eq (c : Dev nD) (t : Fin cfg0.N) :
    (dats m 0 c).flushed 2 t = ((cfg0.win 2).blk t).view.read (Elt Ideal)
      (decodedProduct (M := 8192) (K := 128) (N := 8192) (V m c main_arg0) (V m c main_arg1)) := by
  show (cfg0.win 2).cut (grid0.coords t) ((dats m 0 c).after 2 t) = _
  rw [after0_2]
  unfold out0_2
  rw [View.canon_unit_zero origin2]
  simp only [View.ld_unit_zero (S := S2048x128) origin2, View.ld_unit_zero (S := S128x2048) origin2]
  funext j
  show k0_pay1 (iblk m c 0 t) (iblk m c 1 t) j
    = decodedProduct (M := 8192) (K := 128) (N := 8192) (V m c main_arg0) (V m c main_arg1) (((cfg0.win 2).blk t).view.emb j)
  refine (congrFun (stored_eq (iblk m c 0 t) (iblk m c 1 t)) j).trans ?_
  unfold decodedProduct
  refine Finset.sum_congr rfl fun k _ => ?_
  refine congrArg₂ (· * ·) (congrArg decodeL ?_) (congrArg decodeR ?_)
  · refine left_block_apply m c t _ _ ?_ rfl
    show win0_2.index t (0 : Fin 2) * 2048 + 1 * (j 0).val = win0_2.index t (0 : Fin 2) * 2048 + (j 0).val
    omega
  · refine right_block_apply m c t _ _ rfl ?_
    show win0_2.index t (1 : Fin 2) * 2048 + 1 * (j 1).val = win0_2.index t (1 : Fin 2) * 2048 + (j 1).val
    omega

/-- An index of the result is in a point's block iff each coordinate is in the block's range on its axis. -/
theorem mem_block (t : Fin cfg0.N) (i : S8192x8192.Idx) :
    i ∈ ((cfg0.win 2).blk t).view.set ↔ ∀ a : Fin 2, win0_2.index t a * S2048x2048.size a ≤ (i a).val
      ∧ (i a).val < win0_2.index t a * S2048x2048.size a + S2048x2048.size a := by
  show i ∈ ((View.whole main_v0).slice (win0_2.rect t)).set ↔ _
  rw [View.set_slice_whole, Rect.mem_set_unit]
  exact Iff.rfl

/-- Every index of the result lies in the block of the point whose block indices are its coordinates divided by 2048. -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := every_block ⟨(i 0).val / 2048, by omega⟩ ⟨(i 1).val / 2048, by omega⟩
  have q0 : win0_2.index t (0 : Fin 2) = (i 0).val / 2048 := congrFun ht 0
  have q1 : win0_2.index t (1 : Fin 2) = (i 1).val / 2048 := congrFun ht 1
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    omega
  | ⟨1, _⟩ =>
    show win0_2.index t (1 : Fin 2) * 2048 ≤ (i 1).val ∧ (i 1).val < win0_2.index t (1 : Fin 2) * 2048 + 2048
    omega

/-- After the run the result array is the decoded product of the two argument arrays. -/
theorem final (c : Dev nD) : (dats m 0 c).arrAt 2 cfg0.N
    = decodedProduct (M := 8192) (K := 128) (N := 8192) (m ((c : Thread nD τ).loc main_arg0)) (m ((c : Thread nD τ).loc main_arg1)) :=
  (dats m 0 c).arrAt_eq_of_cover 2 _ (fun t _ => flushed_eq m c t) covered

/-- The kernel's run: it ends with the result at the decoded product of the arguments, and the arguments unchanged. -/
theorem run : θ_run defs (onTc (τ := τ) (main (F := Ideal))) ⟨m, fun _ => 0, ρ⟩ fun r => ∀ c : Dev nD,
      r.2.mem ((c : Thread nD τ).loc main_v0)
        = decodedProduct (M := 8192) (K := 128) (N := 8192) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Hand

end
-- ==== Proof.lean ====
/-
  The kernel and its reference compute one function: the product of two matrices of integer codes after each code is
  decoded, (a − zL)·sL on the left and (b − zR)·sR on the right (Proof/Dequant.lean). The reference decodes the whole
  arrays and multiplies them once (Proof/RefProduct.lean). The kernel walks a 4 × 4 grid; at each point it decodes a
  2048 × 128 block of rows and a 128 × 2048 block of columns, narrows them to the half-width format — which changes no
  value on the extended reals — and multiplies them into a zero accumulator (Proof/BodyProduct.lean); the sixteen result
  blocks tile the 8192 × 8192 result (Proof/Blocks.lean). On the extended reals both sides are, entry by entry, the same
  sum over the contracted coordinate of the same products, with the same four constants, so no finiteness of the inputs
  is used. The idealization rewrote nothing, so the kernel's idealized form is its own text read on the extended reals.
-/
import proofs.«168232_j54752243089862_1_alg».proof.Defs
import proofs.«168232_j54752243089862_1_alg».proof.Proof.Gen.Kernel
import proofs.«168232_j54752243089862_1_alg».proof.Proof.Gen.Kernel.Frame
import proofs.«168232_j54752243089862_1_alg».proof.Proof.Gen.KernelIdeal
import proofs.«168232_j54752243089862_1_alg».proof.Proof.Gen.KernelIdeal.Frame
import proofs.«168232_j54752243089862_1_alg».proof.Proof.Gen.KernelIdeal.Value
import proofs.«168232_j54752243089862_1_alg».proof.Proof.Gen.ReferenceIdeal
import proofs.«168232_j54752243089862_1_alg».proof.Proof.Gen.ReferenceIdeal.Run
import proofs.«168232_j54752243089862_1_alg».proof.Proof.Gen.ReferenceIdeal.Read
import proofs.«168232_j54752243089862_1_alg».proof.Proof.Gen.Pre_finite_inputs
import proofs.«168232_j54752243089862_1_alg».proof.Proof.RefProduct
import proofs.«168232_j54752243089862_1_alg».proof.Proof.Blocks
import Idealize.ShloMosaic.Adequacy
import Idealize.ShloMosaic.Init

noncomputable section

namespace Cert.Proof

open Idealize.ShloMosaic Idealize.SL.Sem

/-- The word-level kernel terminates without a fault and leaves its arguments unchanged. -/
theorem frame_kernel [Cert.Kernel.Facts] [Cert.Pre_finite_inputs.Facts] : Cert.frame_Kernel :=
  fun m ρ _ => Cert.Kernel.Gen.frame m ρ

/-- So does the kernel read on the extended reals. -/
theorem frame_kernelIdeal [Cert.KernelIdeal.Facts] [Cert.Pre_finite_inputs.Facts] : Cert.frame_KernelIdeal :=
  fun m ρ _ => Cert.KernelIdeal.Gen.frame m ρ

/-- The reference's run, with its result forgotten, is its frame. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end with the decoded product of the arguments: the kernel block by block, the reference as one
    product; from arguments that agree the two results are equal. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.product_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
